-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel

variable [Facts]

def fn {F : FTy → Type} [FloatOps F] (main_arg0 : FVec F S16x1024x1024 .f32) (main_arg1 : FVec F S16x1024x1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  main_v8
-- ==== Kernel.lean ====
abbrev S16x1024x1024 : Shape := ⟨3, ![16, 1024, 1024]⟩
abbrev S1x512x1024 : Shape := ⟨3, ![1, 512, 1024]⟩
abbrev S1x1024x1024 : Shape := ⟨3, ![1, 1024, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 9
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S16x1024x1024, .f32⟩
  | .hbm, ⟨3, _⟩ => ⟨S16x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .bf16⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  reduces_S512x1024_S512 : S512x1024.Reduces [1] S512
  shapeCasts_S512_S512x1 : S512.ShapeCasts S512x1
  broadcasts_S512x1_S512x1024 : S512x1.Broadcasts S512x1024
  dot_S512x1024_S1024x1024_S512x1024_1_1_0_0_n_n_wf : DotDims.WF S512x1024 S1024x1024 S512x1024 [1] [1] [0] [0] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x1024x1024.size a
  hwx0_0 : ∀ i : grid0.Coords, EltTy.bits .f32 = 32 ∨ (Rect.block (s := S16x1024x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .f32 = 32 ∨ (Rect.block (s := S16x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S16x1024x1024.size a
  hwx0_2 : ∀ i : grid0.Coords, EltTy.bits .f32 = 32 ∨ (Rect.block (s := S16x1024x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S16x1024x1024.size a
  hwx0_3 : ∀ i : grid0.Coords, EltTy.bits .f32 = 32 ∨ (Rect.block (s := S16x1024x1024) S1x512x1024.size (cc0_transform_3 i) (hinb0_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S_ : Shape := ⟨0, ![]⟩
abbrev S16x1024 : Shape := ⟨2, ![16, 1024]⟩
abbrev S16x1024x1 : Shape := ⟨3, ![16, 1024, 1]⟩

abbrev nBuf : Space → Nat
  | .hbm => 18
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S16x1024x1024, .f32⟩
  | .hbm, ⟨3, _⟩ => ⟨S_, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S16x1024x1, .f32⟩
  | .hbm, ⟨9, _⟩ => ⟨S16x1024x1024, .f32⟩
  | .hbm, ⟨10, _⟩ => ⟨S16x1024x1024, .f32⟩
  | .hbm, ⟨11, _⟩ => ⟨S16x1024x1024, .f32⟩
  | .hbm, ⟨12, _⟩ => ⟨S_, .f32⟩
  | .hbm, ⟨13, _⟩ => ⟨S16x1024, .f32⟩
  | .hbm, ⟨14, _⟩ => ⟨S16x1024x1, .f32⟩
  | .hbm, ⟨15, _⟩ => ⟨S16x1024x1024, .f32⟩
  | .hbm, ⟨16, _⟩ => ⟨S16x1024x1024, .f32⟩
  | .hbm, ⟨17, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  dot_S16x1024x1024_S16x1024x1024_S16x1024x1024_2_2_1_1_0_0_wf : DotDims.WF S16x1024x1024 S16x1024x1024 S16x1024x1024 [2] [2] [1] [1] [0] [0]
  dot_S16x1024x1024_S16x1024x1024_S16x1024x1024_2_1_1_2_0_0_wf : DotDims.WF S16x1024x1024 S16x1024x1024 S16x1024x1024 [2] [1] [1] [2] [0] [0]

variable [Facts₀]

def dot_S16x1024x1024_S16x1024x1024_S16x1024x1024_2_2_1_1_0_0 : DotDims S16x1024x1024 S16x1024x1024 S16x1024x1024 where
  lhsContracting := [2]
  rhsContracting := [2]
  lhsNonContracting := [1]
  rhsNonContracting := [1]
  lhsBatch := [0]
  rhsBatch := [0]
  wf := dot_S16x1024x1024_S16x1024x1024_S16x1024x1024_2_2_1_1_0_0_wf
def dot_S16x1024x1024_S16x1024x1024_S16x1024x1024_2_1_1_2_0_0 : DotDims S16x1024x1024 S16x1024x1024 S16x1024x1024 where
  lhsContracting := [2]
  rhsContracting := [1]
  lhsNonContracting := [1]
  rhsNonContracting := [2]
  lhsBatch := [0]
  rhsBatch := [0]
  wf := dot_S16x1024x1024_S16x1024x1024_S16x1024x1024_2_1_1_2_0_0_wf

class Facts : Prop extends Facts₀ where

variable [Facts]
-- ==== Proof.Pieces.lean ====
/-
  What one run of the kernel body leaves behind, as values: each of its stores covers its whole buffer, so a buffer
  ends holding the stored value, and every load reads a whole buffer.

  At a batch's first query tile the body first fills its key cache from the key block, and both results are then
  computed from the query tile and the freshly filled cache; at the other tile the cache is left as it was found and
  the results are computed from the query tile and that cache.  In both cases the score tile is the stored product and
  the context tile the stored softmax-weighted product.
-/
import proofs.«151234_j10264971837964_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- First tile of a batch: the cache ends holding the key block, cast. -/
theorem cache_first (c : Dev nD) (i : grid0.Coords) (arg2 : Memref sig .tc .vmem S1x512x1024 .f32) (harg2 : arg2.IsWhole) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (hc0 : cond0_0 i) (x0 : Vec F S1x512x1024 .f32) (x1 : Vec F S1x1024x1024 .f32) :
    sout0_A_0 c i arg2 harg2 arg3 harg3 arg4 harg4 arg5 harg5 arg6 harg6 hc0 x0 x1 = k0_pay1 x1 := by
  unfold sout0_A_0
  rw [View.read_writes_eq_canon _ _ _ (scover0_A_0 c i arg2 harg2 arg3 harg3 arg4 harg4 arg5 harg5 arg6 harg6 hc0 x0 x1)]
  unfold kernelRun0_A
  dsimp only
  try sl_unfold_words
  rw [View.canon_unit_zero hz2]
  simp only [View.readAt_eq_ld, harg3.read_unread, View.ld_unit_zero (S := S1x1024x1024) hz3]

/-- First tile of a batch: the score tile, over the freshly filled cache. -/
theorem scores_first (c : Dev nD) (i : grid0.Coords) (arg2 : Memref sig .tc .vmem S1x512x1024 .f32) (harg2 : arg2.IsWhole) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (hc0 : cond0_0 i) (x0 : Vec F S1x512x1024 .f32) (x1 : Vec F S1x1024x1024 .f32) :
    out0_A_3 c i arg2 harg2 arg3 harg3 arg4 harg4 arg5 harg5 arg6 harg6 hc0 x0 x1 = k0_pay3 x0 (k0_pay1 x1) := by
  unfold out0_A_3
  rw [View.read_writes_eq_canon _ _ _ (cover0_A_3 c i arg2 harg2 arg3 harg3 arg4 harg4 arg5 harg5 arg6 harg6 hc0 x0 x1)]
  unfold kernelRun0_A
  dsimp only
  try sl_unfold_words
  rw [View.canon_unit_zero hz3, View.readCov_unit_zero (S := S1024x1024) _ hz2]
  simp only [View.readAt_eq_ld, harg2.read_unread, harg3.read_unread, View.ld_unit_zero (S := S1x512x1024) hz3, View.ld_unit_zero (S := S1x1024x1024) hz3]

/-- First tile of a batch: the context tile, over the freshly filled cache. -/
theorem context_first (c : Dev nD) (i : grid0.Coords) (arg2 : Memref sig .tc .vmem S1x512x1024 .f32) (harg2 : arg2.IsWhole) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (hc0 : cond0_0 i) (x0 : Vec F S1x512x1024 .f32) (x1 : Vec F S1x1024x1024 .f32) :
    out0_A_2 c i arg2 harg2 arg3 harg3 arg4 harg4 arg5 harg5 arg6 harg6 hc0 x0 x1 = k0_pay4 x0 (k0_pay1 x1) := by
  unfold out0_A_2
  rw [View.read_writes_eq_canon _ _ _ (cover0_A_2 c i arg2 harg2 arg3 harg3 arg4 harg4 arg5 harg5 arg6 harg6 hc0 x0 x1)]
  unfold kernelRun0_A
  dsimp only
  try sl_unfold_words
  rw [View.canon_unit_zero hz3, View.readCov_unit_zero (S := S1024x1024) _ hz2]
  simp only [View.readAt_eq_ld, harg2.read_unread, harg3.read_unread, View.ld_unit_zero (S := S1x512x1024) hz3, View.ld_unit_zero (S := S1x1024x1024) hz3]

/-- Later tile: the score tile, over the cache as found. -/
theorem scores_later (c : Dev nD) (i : grid0.Coords) (arg2 : Memref sig .tc .vmem S1x512x1024 .f32) (harg2 : arg2.IsWhole) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (hc0 : ¬cond0_0 i) (x0 : Vec F S1x512x1024 .f32) (x1 : Vec F S1x1024x1024 .f32) (xs0 : Vec F S1024x1024 .bf16) :
    out0_B_3 c i arg2 harg2 arg3 harg3 arg4 harg4 arg5 harg5 arg6 harg6 hc0 x0 x1 xs0 = k0_pay3 x0 xs0 := by
  unfold out0_B_3
  rw [View.read_writes_eq_canon _ _ _ (cover0_B_3 c i arg2 harg2 arg3 harg3 arg4 harg4 arg5 harg5 arg6 harg6 hc0 x0 x1 xs0)]
  unfold kernelRun0_B
  dsimp only
  try sl_unfold_words
  rw [View.canon_unit_zero hz3]
  simp only [View.readAt_eq_ld, harg2.read_unread, harg6.read_unread, View.ld_unit_zero (S := S1x512x1024) hz3, View.ld_unit_zero (S := S1024x1024) hz2]

/-- Later tile: the context tile, over the cache as found. -/
theorem context_later (c : Dev nD) (i : grid0.Coords) (arg2 : Memref sig .tc .vmem S1x512x1024 .f32) (harg2 : arg2.IsWhole) (arg3 : Memref sig .tc .vmem S1x1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1024x1024 .bf16) (harg6 : arg6.IsWhole) (hc0 : ¬cond0_0 i) (x0 : Vec F S1x512x1024 .f32) (x1 : Vec F S1x1024x1024 .f32) (xs0 : Vec F S1024x1024 .bf16) :
    out0_B_2 c i arg2 harg2 arg3 harg3 arg4 harg4 arg5 harg5 arg6 harg6 hc0 x0 x1 xs0 = k0_pay4 x0 xs0 := by
  unfold out0_B_2
  rw [View.read_writes_eq_canon _ _ _ (cover0_B_2 c i arg2 harg2 arg3 harg3 arg4 harg4 arg5 harg5 arg6 harg6 hc0 x0 x1 xs0)]
  unfold kernelRun0_B
  dsimp only
  try sl_unfold_words
  rw [View.canon_unit_zero hz3]
  simp only [View.readAt_eq_ld, harg2.read_unread, harg6.read_unread, View.ld_unit_zero (S := S1x512x1024) hz3, View.ld_unit_zero (S := S1024x1024) hz2]

end Cert.KernelIdeal.Pieces

end
-- ==== Proof.Spec.lean ====
/-
  Unscaled dot-product attention over the extended reals, index by index.

  For a batch `b`, a query row `q`, a key row `k` and a feature `h` (16 batches, 1024 rows, 1024 features):
    score  b q k = ∑ h, Q[b,q,h] · M[b,k,h]
    rowMax b q   = the maximum over k of score b q k, taken from -∞
    weight b q k = exp (score b q k − rowMax b q)
    prob   b q k = weight b q k / ∑ k', weight b q k'
    context b q h = ∑ k, prob b q k · M[b,k,h]
  The two results are the context array and the raw score array.  The same formulas are also stated for ONE tile:
  512 query rows `X` of one batch against that batch's whole key matrix `K`.  A tile's values are the whole
  arrays' values at the tile's rows (`tile_score`, `tile_context`): nothing but congruence, since every
  operation in the formulas acts within one query row.
-/
import Idealize.ShloMosaic.PureOps.Ideal
import Idealize.ShloMosaic.Lib.ValueIdx

noncomputable section

open scoped BigOperators

namespace Cert.Attn

open Idealize.ShloMosaic Idealize.ShloMosaic.ValueIdx

/-- The shape of both arguments and both results. -/
abbrev Arr : Shape := ⟨3, ![16, 1024, 1024]⟩
/-- One tile of query rows, as the kernel stages it (a leading unit axis). -/
abbrev QTile : Shape := ⟨3, ![1, 512, 1024]⟩
/-- One batch's key matrix. -/
abbrev KMat : Shape := ⟨2, ![1024, 1024]⟩

/-- The value the row maximum starts from: the f32 pattern of -∞ (never evaluated: both programs start from the same word). -/
abbrev negInf : EReal := Ideal.ofBits .f32 0xFF800000#32

/-! ## The whole arrays -/

def score (Q M : Arr.Idx → EReal) (b : Fin 16) (q k : Fin 1024) : EReal :=
  ∑ h : Fin 1024, Q (ix3 b q h) * M (ix3 b k h)

def rowMax (Q M : Arr.Idx → EReal) (b : Fin 16) (q : Fin 1024) : EReal :=
  (Finset.univ : Finset (Fin 1024)).fold max negInf (fun k => score Q M b q k)

def weight (Q M : Arr.Idx → EReal) (b : Fin 16) (q k : Fin 1024) : EReal :=
  Ideal.exp (score Q M b q k - rowMax Q M b q)

def weightSum (Q M : Arr.Idx → EReal) (b : Fin 16) (q : Fin 1024) : EReal :=
  ∑ k : Fin 1024, weight Q M b q k

def prob (Q M : Arr.Idx → EReal) (b : Fin 16) (q k : Fin 1024) : EReal :=
  Ideal.div (weight Q M b q k) (weightSum Q M b q)

def context (Q M : Arr.Idx → EReal) (b : Fin 16) (q h : Fin 1024) : EReal :=
  ∑ k : Fin 1024, prob Q M b q k * M (ix3 b k h)

/-- The raw scores, as an array. -/
def scoresArr (Q M : Arr.Idx → EReal) : Arr.Idx → EReal := fun i => score Q M (i 0) (i 1) (i 2)
/-- The attention context, as an array. -/
def contextArr (Q M : Arr.Idx → EReal) : Arr.Idx → EReal := fun i => context Q M (i 0) (i 1) (i 2)

/-! ## One tile of 512 query rows against one key matrix -/

def tScore (X : QTile.Idx → EReal) (K : KMat.Idx → EReal) (r : Fin 512) (k : Fin 1024) : EReal :=
  ∑ h : Fin 1024, X (ix3 (0 : Fin 1) r h) * K (ix2 k h)

def tMax (X : QTile.Idx → EReal) (K : KMat.Idx → EReal) (r : Fin 512) : EReal :=
  (Finset.univ : Finset (Fin 1024)).fold max negInf (fun k => tScore X K r k)

def tWeight (X : QTile.Idx → EReal) (K : KMat.Idx → EReal) (r : Fin 512) (k : Fin 1024) : EReal :=
  Ideal.exp (tScore X K r k - tMax X K r)

def tWeightSum (X : QTile.Idx → EReal) (K : KMat.Idx → EReal) (r : Fin 512) : EReal :=
  ∑ k : Fin 1024, tWeight X K r k

def tProb (X : QTile.Idx → EReal) (K : KMat.Idx → EReal) (r : Fin 512) (k : Fin 1024) : EReal :=
  Ideal.div (tWeight X K r k) (tWeightSum X K r)

def tContext (X : QTile.Idx → EReal) (K : KMat.Idx → EReal) (r : Fin 512) (h : Fin 1024) : EReal :=
  ∑ k : Fin 1024, tProb X K r k * K (ix2 k h)

/-! ## A tile of the arrays computes the arrays' values at its rows -/

section Tile
variable (Q M : Arr.Idx → EReal) (X : QTile.Idx → EReal) (K : KMat.Idx → EReal) (b : Fin 16) (row : Fin 512 → Fin 1024)
  (hX : ∀ r h, X (ix3 (0 : Fin 1) r h) = Q (ix3 b (row r) h)) (hK : ∀ k h, K (ix2 k h) = M (ix3 b k h))
include hX hK

theorem tile_score (r : Fin 512) (k : Fin 1024) : tScore X K r k = score Q M b (row r) k := by
  unfold tScore score
  exact Finset.sum_congr rfl fun h _ => by rw [hX, hK]

theorem tile_max (r : Fin 512) : tMax X K r = rowMax Q M b (row r) := by
  unfold tMax rowMax
  exact congrArg (fun f : Fin 1024 → EReal => (Finset.univ : Finset (Fin 1024)).fold max negInf f)
    (funext fun k => tile_score Q M X K b row hX hK r k)

theorem tile_weight (r : Fin 512) (k : Fin 1024) : tWeight X K r k = weight Q M b (row r) k := by
  unfold tWeight weight
  rw [tile_score Q M X K b row hX hK, tile_max Q M X K b row hX hK]

theorem tile_weightSum (r : Fin 512) : tWeightSum X K r = weightSum Q M b (row r) := by
  unfold tWeightSum weightSum
  exact Finset.sum_congr rfl fun k _ => tile_weight Q M X K b row hX hK r k

theorem tile_prob (r : Fin 512) (k : Fin 1024) : tProb X K r k = prob Q M b (row r) k := by
  unfold tProb prob
  rw [tile_weight Q M X K b row hX hK, tile_weightSum Q M X K b row hX hK]

theorem tile_context (r : Fin 512) (h : Fin 1024) : tContext X K r h = context Q M b (row r) h := by
  unfold tContext context
  exact Finset.sum_congr rfl fun k _ => by rw [tile_prob Q M X K b row hX hK, hK]

end Tile

end Cert.Attn

end
-- ==== Proof.TileValue.lean ====
/-
  What the kernel body's stored values are, element by element, over the extended reals, for ONE tile of
  512 query rows `X` and whatever 1024 × 1024 key matrix `K` the body finds in its cache:

    the cache fill   (the key block rounded to bf16: no rounding here)     K[k,h] = block[0,k,h]
    the score tile   (a matrix product contracting the feature axis)       ∑ h, X[r,h] · K[k,h]
    the context tile (row softmax of the scores, then a second product)    ∑ k, softmax(scores)[r,k] · K[k,h]

  A product into a zero accumulator is the plain sum over the contracted axis; a lane maximum is the fold of
  `max` over the row from -∞, a lane sum the sum over the row; a row statistic reshaped to a column and
  broadcast across the row reads the statistic of its row.  Nothing here needs the entries to be finite.
-/
import proofs.«151234_j10264971837964_2_alg».proof.Proof.Gen.KernelIdeal.Skeleton
import proofs.«151234_j10264971837964_2_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.Tile

open Cert.KernelIdeal Cert.KernelIdeal.Gen Idealize.ShloMosaic Idealize.ShloMosaic.ValueIdx Cert.Attn

/-- The dimension numbers of the score product: both operands contract their feature axis (axis 1). -/
abbrev DS : DotDims S512x1024 S1024x1024 S512x1024 := dot_S512x1024_S1024x1024_S512x1024_1_1_0_0_n_n
/-- The dimension numbers of the context product: probabilities' key axis against the key matrix's row axis. -/
abbrev DC : DotDims S512x1024 S1024x1024 S512x1024 := dot_S512x1024_S1024x1024_S512x1024_1_0_0_1_n_n

/-! ## The cache fill -/

/-- The cache holds the key block itself: dropping the block's unit axis, and a format change that is the identity. -/
theorem fill_apply (x1 : Vec Ideal S1x1024x1024 .f32) (k h : Fin 1024) :
    k0_pay1 (F := Ideal) x1 (ix2 k h) = x1 (ix3 (0 : Fin 1) k h) := by
  unfold k0_pay1
  rw [shapeCast_self]
  exact shapeCast_1ab_ab_apply x1 _ k h

/-! ## The score tile -/

theorem DS_lhs0 (i : S512x1024.Idx) (q : DS.contr.Idx) : (DS.lhsIdx i q 0).val = (i 0).val := by
  unfold DotDims.lhsIdx
  rw [dif_neg (show ¬(0 : Fin S512x1024.rank) ∈ DS.lhsBatch by decide), dif_pos (show (0 : Fin S512x1024.rank) ∈ DS.lhsNonContracting by decide)]
  rfl
theorem DS_lhs1 (i : S512x1024.Idx) (q : DS.contr.Idx) : (DS.lhsIdx i q 1).val = (q ⟨0, by decide⟩).val :=
  DS.lhsIdx_val_of_single rfl i q
theorem DS_rhs0 (i : S512x1024.Idx) (q : DS.contr.Idx) : (DS.rhsIdx i q 0).val = (i 1).val := by
  unfold DotDims.rhsIdx
  rw [dif_neg (show ¬(0 : Fin S1024x1024.rank) ∈ DS.rhsBatch by decide), dif_pos (show (0 : Fin S1024x1024.rank) ∈ DS.rhsNonContracting by decide)]
  rfl
theorem DS_rhs1 (i : S512x1024.Idx) (q : DS.contr.Idx) : (DS.rhsIdx i q 1).val = (q ⟨0, by decide⟩).val :=
  DS.rhsIdx_val_of_single rfl i q

/-- Entry (r, k) of the score product is the sum over the features of row r of the queries times row k of the keys. -/
theorem scores_apply (x0 : Vec Ideal S1x512x1024 .f32) (xs : FVec Ideal S1024x1024 .bf16) (r : Fin 512) (k : Fin 1024) :
    k0_pay2 (F := Ideal) x0 xs (ix2 r k) = tScore x0 xs r k := by
  unfold k0_pay2 tScore
  refine (Ideal.matmul_constant_zero_apply DS none _ _ (ix2 r k)).trans ?_
  rw [← Equiv.sum_comp (contrEquiv1 DS 1024 rfl rfl).symm]
  refine Finset.sum_congr rfl fun h _ => ?_
  have hk := contrEquiv1_symm_val DS 1024 rfl rfl h
  have el : DS.lhsIdx (ix2 r k) ((contrEquiv1 DS 1024 rfl rfl).symm h) = ix2 r h := funext fun a => Fin.ext (by
    match a with
    | ⟨0, _⟩ => exact DS_lhs0 _ _
    | ⟨1, _⟩ => exact (DS_lhs1 _ _).trans hk)
  have er : DS.rhsIdx (ix2 r k) ((contrEquiv1 DS 1024 rfl rfl).symm h) = ix2 k h := funext fun a => Fin.ext (by
    match a with
    | ⟨0, _⟩ => exact DS_rhs0 _ _
    | ⟨1, _⟩ => exact (DS_rhs1 _ _).trans hk)
  rw [el, er]
  exact congrArg (· * xs (ix2 k h)) (shapeCast_1ab_ab_apply x0 _ r h)

/-- The stored score tile: the product with the block's unit axis put back. -/
theorem storedScores_apply (x0 : Vec Ideal S1x512x1024 .f32) (xs : FVec Ideal S1024x1024 .bf16) (u : Fin 1) (r : Fin 512) (k : Fin 1024) :
    k0_pay3 (F := Ideal) x0 xs (ix3 u r k) = tScore x0 xs r k := by
  unfold k0_pay3
  exact (shapeCast_ab_1ab_apply _ _ u r k).trans (scores_apply x0 xs r k)

/-! ## Row statistics -/

/-- The lane maximum of row r: the fold of `max` over the row's entries, from -∞. -/
theorem laneMax_apply (s : FVec Ideal S512x1024 .f32) (r : Fin 512) :
    multiReduction (F := Ideal) .maximumf [1] S512 s 0xFF800000#32 reduces_S512x1024_S512 (.inl rfl) rfl (ix1 r)
      = (Finset.univ : Finset (Fin 1024)).fold max negInf (fun k => s (ix2 r k)) := by
  refine (Ideal.multiReduction_maximumf_single s 0xFF800000#32 reduces_S512x1024_S512 (.inl rfl) rfl (ix1 r)).trans ?_
  exact congrArg (fun f : Fin 1024 → EReal => (Finset.univ : Finset (Fin 1024)).fold max negInf f)
    (funext fun k => congrArg s (funext fun a => Fin.ext (by match a with | ⟨0, _⟩ => rfl | ⟨1, _⟩ => rfl)))

/-- The lane sum of row r: the sum of the row's entries. -/
theorem laneSum_apply (s : FVec Ideal S512x1024 .f32) (r : Fin 512) :
    multiReduction (F := Ideal) .add [1] S512 s 0x00000000#32 reduces_S512x1024_S512 (.inl rfl) rfl (ix1 r)
      = ∑ k : Fin 1024, s (ix2 r k) := by
  refine (Ideal.multiReduction_add_single s 0x00000000#32 reduces_S512x1024_S512 (.inl rfl) rfl (ix1 r)).trans ?_
  exact Finset.sum_congr rfl fun k _ => congrArg s (funext fun a => Fin.ext (by match a with | ⟨0, _⟩ => rfl | ⟨1, _⟩ => rfl))

/-- A row statistic turned into a column and broadcast across the row reads, at (r, k), the statistic of row r. -/
theorem column_apply {α : Type} (v : S512.Idx → α) (r : Fin 512) (k : Fin 1024) :
    broadcastTo S512x1024 (shapeCast S512x1 v shapeCasts_S512_S512x1) broadcasts_S512x1_S512x1024 (ix2 r k) = v (ix1 r) := by
  refine (broadcastTo_apply _ _ (ix2 r k) (ix2 r (0 : Fin 1)) ?_).trans ?_
  · intro a
    match a with
    | ⟨0, _⟩ => show r.val = if (512 : Nat) = 1 then 0 else r.val; rw [if_neg (by decide)]
    | ⟨1, _⟩ => show 0 = if (1 : Nat) = 1 then 0 else k.val; rw [if_pos rfl]
  · exact shapeCast_apply v _ _ (ix1 r) (by
      rw [Shape.rowMajor_val_one, Shape.rowMajor_val_two]
      show r.val = r.val * 1 + 0
      omega)

/-! ## The row softmax, as the body spells it over a score tile `s` -/

/-- exp (s − row maximum). -/
def expShifted (s : FVec Ideal S512x1024 .f32) : FVec Ideal S512x1024 .f32 :=
  exp (F := Ideal) (subf s (broadcastTo S512x1024 (shapeCast S512x1
    (multiReduction (F := Ideal) .maximumf [1] S512 s 0xFF800000#32 reduces_S512x1024_S512 (.inl rfl) rfl)
    shapeCasts_S512_S512x1) broadcasts_S512x1_S512x1024))

/-- exp (s − row maximum) divided by its row sum. -/
def softmaxRows (s : FVec Ideal S512x1024 .f32) : FVec Ideal S512x1024 .f32 :=
  divf (F := Ideal) (expShifted s) (broadcastTo S512x1024 (shapeCast S512x1
    (multiReduction (F := Ideal) .add [1] S512 (expShifted s) 0x00000000#32 reduces_S512x1024_S512 (.inl rfl) rfl)
    shapeCasts_S512_S512x1) broadcasts_S512x1_S512x1024)

theorem expShifted_apply (s : FVec Ideal S512x1024 .f32) (r : Fin 512) (k : Fin 1024) :
    expShifted s (ix2 r k)
      = Ideal.exp (s (ix2 r k) - (Finset.univ : Finset (Fin 1024)).fold max negInf (fun k' => s (ix2 r k'))) := by
  unfold expShifted
  have e := column_apply (multiReduction (F := Ideal) .maximumf [1] S512 s 0xFF800000#32 reduces_S512x1024_S512 (.inl rfl) rfl) r k
  rw [laneMax_apply] at e
  exact congrArg (fun z => Ideal.exp (s (ix2 r k) - z)) e

theorem softmaxRows_apply (s : FVec Ideal S512x1024 .f32) (r : Fin 512) (k : Fin 1024) :
    softmaxRows s (ix2 r k)
      = Ideal.div (Ideal.exp (s (ix2 r k) - (Finset.univ : Finset (Fin 1024)).fold max negInf (fun k' => s (ix2 r k'))))
          (∑ j : Fin 1024, Ideal.exp (s (ix2 r j) - (Finset.univ : Finset (Fin 1024)).fold max negInf (fun k' => s (ix2 r k')))) := by
  unfold softmaxRows
  have e := column_apply (multiReduction (F := Ideal) .add [1] S512 (expShifted s) 0x00000000#32 reduces_S512x1024_S512 (.inl rfl) rfl) r k
  rw [laneSum_apply] at e
  refine (congrArg₂ Ideal.div (expShifted_apply s r k) e).trans ?_
  exact congrArg (Ideal.div _) (Finset.sum_congr rfl fun j _ => expShifted_apply s r j)

/-! ## The context tile -/

/-- The body's stored context is the second product of the softmaxed score tile with the cache. -/
theorem context_eq (x0 : Vec Ideal S1x512x1024 .f32) (xs : FVec Ideal S1024x1024 .bf16) :
    k0_pay4 (F := Ideal) x0 xs
      = shapeCast S1x512x1024 (matmul (F := Ideal) DC none (truncf .bf16 (softmaxRows (k0_pay2 (F := Ideal) x0 xs)) bitsLt_bf16_f32) xs
          (constant (F := Ideal) S512x1024 .f32 0x00000000#32)) shapeCasts_S512x1024_S1x512x1024 := rfl

theorem DC_lhs0 (i : S512x1024.Idx) (q : DC.contr.Idx) : (DC.lhsIdx i q 0).val = (i 0).val := by
  unfold DotDims.lhsIdx
  rw [dif_neg (show ¬(0 : Fin S512x1024.rank) ∈ DC.lhsBatch by decide), dif_pos (show (0 : Fin S512x1024.rank) ∈ DC.lhsNonContracting by decide)]
  rfl
theorem DC_lhs1 (i : S512x1024.Idx) (q : DC.contr.Idx) : (DC.lhsIdx i q 1).val = (q ⟨0, by decide⟩).val :=
  DC.lhsIdx_val_of_single rfl i q
theorem DC_rhs0 (i : S512x1024.Idx) (q : DC.contr.Idx) : (DC.rhsIdx i q 0).val = (q ⟨0, by decide⟩).val :=
  DC.rhsIdx_val_of_single rfl i q
theorem DC_rhs1 (i : S512x1024.Idx) (q : DC.contr.Idx) : (DC.rhsIdx i q 1).val = (i 1).val := by
  unfold DotDims.rhsIdx
  rw [dif_neg (show ¬(1 : Fin S1024x1024.rank) ∈ DC.rhsBatch by decide), dif_pos (show (1 : Fin S1024x1024.rank) ∈ DC.rhsNonContracting by decide)]
  rfl

/-- Entry (r, h) of the stored context: the sum over the keys of row r's softmax probability of key k times K[k,h]. -/
theorem storedContext_apply (x0 : Vec Ideal S1x512x1024 .f32) (xs : FVec Ideal S1024x1024 .bf16) (u : Fin 1) (r : Fin 512) (h : Fin 1024) :
    k0_pay4 (F := Ideal) x0 xs (ix3 u r h) = tContext x0 xs r h := by
  rw [context_eq]
  refine (shapeCast_ab_1ab_apply _ _ u r h).trans ?_
  refine (Ideal.matmul_constant_zero_apply DC none _ _ (ix2 r h)).trans ?_
  rw [← Equiv.sum_comp (contrEquiv1 DC 1024 rfl rfl).symm]
  unfold tContext
  refine Finset.sum_congr rfl fun k _ => ?_
  have hk := contrEquiv1_symm_val DC 1024 rfl rfl k
  have el : DC.lhsIdx (ix2 r h) ((contrEquiv1 DC 1024 rfl rfl).symm k) = ix2 r k := funext fun a => Fin.ext (by
    match a with
    | ⟨0, _⟩ => exact DC_lhs0 _ _
    | ⟨1, _⟩ => exact (DC_lhs1 _ _).trans hk)
  have er : DC.rhsIdx (ix2 r h) ((contrEquiv1 DC 1024 rfl rfl).symm k) = ix2 k h := funext fun a => Fin.ext (by
    match a with
    | ⟨0, _⟩ => exact (DC_rhs0 _ _).trans hk
    | ⟨1, _⟩ => exact DC_rhs1 _ _)
  rw [el, er]
  refine congrArg (· * xs (ix2 k h)) ?_
  refine (softmaxRows_apply _ r k).trans ?_
  unfold tProb tWeightSum tWeight tMax
  simp only [scores_apply]

end Cert.KernelIdeal.Tile

end
-- ==== Proof.Whole.lean ====
/-
  From tiles to arrays.  The grid has 32 points; point t works on batch t / 2 and on query tile t % 2 of it
  (rows 512·(t % 2) … 512·(t % 2) + 511), and sees the whole key matrix of batch t / 2.

  * The query block at point t is rows of the query array; the key block is batch t / 2 of the key array.
  * The key cache after ANY point t holds batch t / 2 of the key array: an even point fills it from its own key
    block, and an odd point leaves what the even point before it — same batch — filled.
  * Hence what point t writes back is block t of the score array and of the context array, the blocks tile both
    arrays, and the run ends with the two result arrays at the specification's arrays of the arguments.
-/
import proofs.«151234_j10264971837964_2_alg».proof.Proof.Gen.KernelIdeal.Value
import proofs.«151234_j10264971837964_2_alg».proof.Proof.Pieces
import proofs.«151234_j10264971837964_2_alg».proof.Proof.TileValue
import proofs.«151234_j10264971837964_2_alg».proof.Proof.Spec
import Idealize.ShloMosaic.Lib.Pipeline.Value
import Idealize.ShloMosaic.Lib.ValueIdx

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

/-- The four block index maps, decided over the 32 grid points: batch t / 2 on the leading axis; on the row axis
    tile t % 2 for the queries and both results, the whole key matrix for the keys; the feature axis whole. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = t.val % 2 ∧ win0_2.index t (2 : Fin 3) = 0
    ∧ win0_3.index t (0 : Fin 3) = t.val / 2 ∧ win0_3.index t (1 : Fin 3) = t.val % 2 ∧ win0_3.index t (2 : Fin 3) = 0 :=
  (by decide +kernel : ∀ t : Fin grid0.N, _)

theorem point_lt (t : Fin cfg0.N) : t.val < 32 := lt_of_lt_of_eq t.isLt (show cfg0.N = 32 from N_0)

/-- The batch point t works on. -/
def batchOf (t : Fin cfg0.N) : Fin 16 := ⟨t.val / 2, by have := point_lt t; omega⟩
/-- The array row of row r of point t's query tile. -/
def rowOf (t : Fin cfg0.N) (r : Fin 512) : Fin 1024 := ⟨512 * (t.val % 2) + r.val, by have := r.isLt; omega⟩

/-- The query argument and the key argument, as the region finds them. -/
abbrev Qa (c : Dev nD) : Arr.Idx → EReal := m ((c : Thread nD τ).loc main_arg0)
abbrev Ma (c : Dev nD) : Arr.Idx → EReal := m ((c : Thread nD τ).loc main_arg1)

/-- The query block at point t is rows 512·(t % 2) + r of batch t / 2. -/
theorem queryTile_apply (c : Dev nD) (t : Fin cfg0.N) (r : Fin 512) (h : Fin 1024) :
    (iblk m c 0 t : Vec Ideal S1x512x1024 .f32) (ix3 (0 : Fin 1) r h) = Qa m c (ix3 (batchOf t) (rowOf t r) h) := by
  obtain ⟨e0, e1, e2, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 3) * 1 + 1 * 0 = t.val / 2; rw [e0]; omega
  | ⟨1, _⟩ => show win0_0.index t (1 : Fin 3) * 512 + 1 * r.val = 512 * (t.val % 2) + r.val; rw [e1]; omega
  | ⟨2, _⟩ => show win0_0.index t (2 : Fin 3) * 1024 + 1 * h.val = h.val; rw [e2]; omega

/-- The key block at point t is batch t / 2 of the key array. -/
theorem keyBlock_apply (c : Dev nD) (t : Fin cfg0.N) (k h : Fin 1024) :
    (iblk m c 1 t : Vec Ideal S1x1024x1024 .f32) (ix3 (0 : Fin 1) k h) = Ma m c (ix3 (batchOf t) k h) := by
  obtain ⟨-, -, -, e0, e1, e2, -⟩ := idx_facts t
  unfold iblk
  rw [View.read_apply]
  show V m c main_arg1 _ = m (c.tc.loc main_arg1) _
  unfold V
  congr 1
  funext a
  apply Fin.ext
  match a with
  | ⟨0, _⟩ => show win0_1.index t (0 : Fin 3) * 1 + 1 * 0 = t.val / 2; rw [e0]; omega
  | ⟨1, _⟩ => show win0_1.index t (1 : Fin 3) * 1024 + 1 * k.val = k.val; rw [e1]; omega
  | ⟨2, _⟩ => show win0_1.index t (2 : Fin 3) * 1024 + 1 * h.val = h.val; rw [e2]; omega

/-! ## The key cache -/

/-- After a batch's first point the cache holds that batch's keys. -/
theorem cache_first_apply (c : Dev nD) (t : Fin cfg0.N) (h0 : t.val % 2 = 0) (k h : Fin 1024) :
    (outsAt0 m c t.val t.isLt).2.2 (ix2 k h) = Ma m c (ix3 (batchOf t) k h) := by
  rw [outsAt0_A m c t h0]
  dsimp only
  refine (congrFun (Pieces.cache_first c (grid0.coords t) (ms0_0 t) (hs0_0 t) (ms0_1 t) (hs0_1 t) (ms0_2 t) (hs0_2 t) (ms0_3 t) (hs0_3 t)
    scM0_0 (Memref.isWhole_whole _) ((hcond0_0 t).mpr h0) (iblk m c 0 t) (iblk m c 1 t)) (ix2 k h)).trans ?_
  refine (Tile.fill_apply (iblk m c 1 t) k h).trans ?_
  exact keyBlock_apply m c t k h

/-- Before a batch's second point the cache holds that batch's keys (the first point's fill). -/
theorem cache_before_apply (c : Dev nD) (t : Fin cfg0.N) (h0 : ¬t.val % 2 = 0) (k h : Fin 1024) :
    (outsAt0 m c (t.val - 1) (Nat.lt_of_le_of_lt (Nat.sub_le _ _) t.isLt)).2.2 (ix2 k h) = Ma m c (ix3 (batchOf t) k h) := by
  have hN := point_lt t
  have e := cache_first_apply m c ⟨t.val - 1, Nat.lt_of_le_of_lt (Nat.sub_le _ _) t.isLt⟩ (by show (t.val - 1) % 2 = 0; omega) k h
  have hb : batchOf ⟨t.val - 1, Nat.lt_of_le_of_lt (Nat.sub_le _ _) t.isLt⟩ = batchOf t :=
    Fin.ext (by show (t.val - 1) / 2 = t.val / 2; omega)
  rw [hb] at e
  exact e

/-- After any point the cache holds the keys of that point's batch: the second point of a batch leaves the first's. -/
theorem cache_apply (c : Dev nD) (t : Fin cfg0.N) (k h : Fin 1024) :
    (outsAt0 m c t.val t.isLt).2.2 (ix2 k h) = Ma m c (ix3 (batchOf t) k h) := by
  by_cases h0 : t.val % 2 = 0
  · exact cache_first_apply m c t h0 k h
  · rw [outsAt0_B m c t h0]
    dsimp only
    unfold sout0_B_0
    exact cache_before_apply m c t h0 k h

/-! ## The two tiles a point computes, over a cache that holds its batch's keys -/

theorem tileScores_apply (c : Dev nD) (t : Fin cfg0.N) (xs : FVec Ideal S1024x1024 .bf16)
    (hK : ∀ k h, xs (ix2 k h) = Ma m c (ix3 (batchOf t) k h)) (u : Fin 1) (r : Fin 512) (k : Fin 1024) :
    k0_pay3 (F := Ideal) (iblk m c 0 t) xs (ix3 u r k) = score (Qa m c) (Ma m c) (batchOf t) (rowOf t r) k :=
  (Tile.storedScores_apply (iblk m c 0 t) xs u r k).trans
    (tile_score (Qa m c) (Ma m c) (iblk m c 0 t) xs (batchOf t) (rowOf t) (fun r h => queryTile_apply m c t r h) hK r k)

theorem tileContext_apply (c : Dev nD) (t : Fin cfg0.N) (xs : FVec Ideal S1024x1024 .bf16)
    (hK : ∀ k h, xs (ix2 k h) = Ma m c (ix3 (batchOf t) k h)) (u : Fin 1) (r : Fin 512) (h : Fin 1024) :
    k0_pay4 (F := Ideal) (iblk m c 0 t) xs (ix3 u r h) = context (Qa m c) (Ma m c) (batchOf t) (rowOf t r) h :=
  (Tile.storedContext_apply (iblk m c 0 t) xs u r h).trans
    (tile_context (Qa m c) (Ma m c) (iblk m c 0 t) xs (batchOf t) (rowOf t) (fun r h => queryTile_apply m c t r h) hK r h)

/-- The freshly filled cache holds the point's batch's keys. -/
theorem filled_apply (c : Dev nD) (t : Fin cfg0.N) (k h : Fin 1024) :
    k0_pay1 (F := Ideal) (iblk m c 1 t) (ix2 k h) = Ma m c (ix3 (batchOf t) k h) :=
  (Tile.fill_apply (iblk m c 1 t) k h).trans (keyBlock_apply m c t k h)

/-- The score tile point t leaves in its staging buffer. -/
theorem scoresOut_apply (c : Dev nD) (t : Fin cfg0.N) (u : Fin 1) (r : Fin 512) (k : Fin 1024) :
    (outsAt0 m c t.val t.isLt).2.1 (ix3 u r k) = score (Qa m c) (Ma m c) (batchOf t) (rowOf t r) k := by
  by_cases h0 : t.val % 2 = 0
  · rw [outsAt0_A m c t h0]
    dsimp only
    refine (congrFun (Pieces.scores_first c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t)) (ix3 u r k)).trans ?_
    exact tileScores_apply m c t (k0_pay1 (iblk m c 1 t)) (filled_apply m c t) u r k
  · rw [outsAt0_B m c t h0]
    dsimp only
    refine (congrFun (Pieces.scores_later c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t)
      (outsAt0 m c (t.val - 1) (Nat.lt_of_le_of_lt (Nat.sub_le _ _) t.isLt)).2.2) (ix3 u r k)).trans ?_
    exact tileScores_apply m c t (outsAt0 m c (t.val - 1) (Nat.lt_of_le_of_lt (Nat.sub_le _ _) t.isLt)).2.2 (cache_before_apply m c t h0) u r k

/-- The context tile point t leaves in its staging buffer. -/
theorem contextOut_apply (c : Dev nD) (t : Fin cfg0.N) (u : Fin 1) (r : Fin 512) (h : Fin 1024) :
    (outsAt0 m c t.val t.isLt).1 (ix3 u r h) = context (Qa m c) (Ma m c) (batchOf t) (rowOf t r) h := by
  by_cases h0 : t.val % 2 = 0
  · rw [outsAt0_A m c t h0]
    dsimp only
    refine (congrFun (Pieces.context_first c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t)) (ix3 u r h)).trans ?_
    exact tileContext_apply m c t (k0_pay1 (iblk m c 1 t)) (filled_apply m c t) u r h
  · rw [outsAt0_B m c t h0]
    dsimp only
    refine (congrFun (Pieces.context_later c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t)
      (outsAt0 m c (t.val - 1) (Nat.lt_of_le_of_lt (Nat.sub_le _ _) t.isLt)).2.2) (ix3 u r h)).trans ?_
    exact tileContext_apply m c t (outsAt0 m c (t.val - 1) (Nat.lt_of_le_of_lt (Nat.sub_le _ _) t.isLt)).2.2 (cache_before_apply m c t h0) u r h

/-! ## Blocks of the result arrays -/

theorem score_congr (Q M : Arr.Idx → EReal) {b b' : Fin 16} {q q' k k' : Fin 1024} (hb : b = b') (hq : q = q') (hk : k = k') :
    score Q M b q k = score Q M b' q' k' := by subst hb hq hk; rfl
theorem context_congr (Q M : Arr.Idx → EReal) {b b' : Fin 16} {q q' k k' : Fin 1024} (hb : b = b') (hq : q = q') (hk : k = k') :
    context Q M b q k = context Q M b' q' k' := by subst hb hq hk; rfl

/-- What point t writes back to the score array is block t of the specification's score array. -/
theorem scoresFlushed (c : Dev nD) (t : Fin cfg0.N) :
    (dats m 0 c).flushed 3 t = ((cfg0.win 3).blk t).view.read (Elt Ideal) (scoresArr (Qa m c) (Ma m c)) := by
  obtain ⟨-, -, -, -, -, -, -, -, -, e0, e1, e2⟩ := idx_facts t
  rw [Value.flushed3]
  funext y
  obtain ⟨u, r, k, rfl⟩ : ∃ (u : Fin 1) (r : Fin 512) (k : Fin 1024), y = ix3 u r k :=
    ⟨y 0, y 1, y 2, eq_ix3 (n0 := 1) (n1 := 512) (n2 := 1024) y⟩
  rw [View.read_apply]
  show (outsAt0 m c t.val t.isLt).2.1 (ix3 u r k) = scoresArr (Qa m c) (Ma m c) _
  rw [scoresOut_apply]
  have hu : u.val = 0 := by omega
  unfold scoresArr
  refine score_congr _ _ (Fin.ext ?_) (Fin.ext ?_) (Fin.ext ?_)
  · show t.val / 2 = win0_3.index t (0 : Fin 3) * 1 + 1 * u.val; rw [e0, hu]; omega
  · show 512 * (t.val % 2) + r.val = win0_3.index t (1 : Fin 3) * 512 + 1 * r.val; rw [e1]; omega
  · show k.val = win0_3.index t (2 : Fin 3) * 1024 + 1 * k.val; rw [e2]; omega

/-- What point t writes back to the context array is block t of the specification's context array. -/
theorem contextFlushed (c : Dev nD) (t : Fin cfg0.N) :
    (dats m 0 c).flushed 2 t = ((cfg0.win 2).blk t).view.read (Elt Ideal) (contextArr (Qa m c) (Ma m c)) := by
  obtain ⟨-, -, -, -, -, -, e0, e1, e2, -⟩ := idx_facts t
  rw [Value.flushed2]
  funext y
  obtain ⟨u, r, k, rfl⟩ : ∃ (u : Fin 1) (r : Fin 512) (k : Fin 1024), y = ix3 u r k :=
    ⟨y 0, y 1, y 2, eq_ix3 (n0 := 1) (n1 := 512) (n2 := 1024) y⟩
  rw [View.read_apply]
  show (outsAt0 m c t.val t.isLt).1 (ix3 u r k) = contextArr (Qa m c) (Ma m c) _
  rw [contextOut_apply]
  have hu : u.val = 0 := by omega
  unfold contextArr
  refine context_congr _ _ (Fin.ext ?_) (Fin.ext ?_) (Fin.ext ?_)
  · show t.val / 2 = win0_2.index t (0 : Fin 3) * 1 + 1 * u.val; rw [e0, hu]; omega
  · show 512 * (t.val % 2) + r.val = win0_2.index t (1 : Fin 3) * 512 + 1 * r.val; rw [e1]; omega
  · show k.val = win0_2.index t (2 : Fin 3) * 1024 + 1 * k.val; rw [e2]; omega

/-- Every index of the score array lies in the block of the point of its batch and tile. -/
theorem scores_cover (i : S16x1024x1024.Idx) :
    ∃ t : Fin cfg0.N, (cfg0.win 3).flush t = true ∧ i ∈ ((cfg0.win 3).blk t).view.set := by
  have h0 : (i 0).val < 16 := (i 0).isLt
  have h1 : (i 1).val < 1024 := (i 1).isLt
  have h2 : (i 2).val < 1024 := (i 2).isLt
  have hN : cfg0.N = 32 := N_0
  obtain ⟨t, ht⟩ : ∃ t : Fin cfg0.N, t.val = 2 * (i 0).val + (i 1).val / 512 := ⟨⟨2 * (i 0).val + (i 1).val / 512, by omega⟩, rfl⟩
  obtain ⟨-, -, -, -, -, -, -, -, -, e0, e1, e2⟩ := idx_facts t
  refine ⟨t, flush0_3 t, ?_⟩
  show i ∈ ((View.whole main_v0_1).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; rw [e0]; omega
  | ⟨1, _⟩ => show win0_3.index t (1 : Fin 3) * 512 ≤ (i 1).val ∧ (i 1).val < win0_3.index t (1 : Fin 3) * 512 + 512; rw [e1]; omega
  | ⟨2, _⟩ => show win0_3.index t (2 : Fin 3) * 1024 ≤ (i 2).val ∧ (i 2).val < win0_3.index t (2 : Fin 3) * 1024 + 1024; rw [e2]; omega

/-- Every index of the context array lies in the block of the point of its batch and tile. -/
theorem context_cover (i : S16x1024x1024.Idx) :
    ∃ t : Fin cfg0.N, (cfg0.win 2).flush t = true ∧ i ∈ ((cfg0.win 2).blk t).view.set := by
  have h0 : (i 0).val < 16 := (i 0).isLt
  have h1 : (i 1).val < 1024 := (i 1).isLt
  have h2 : (i 2).val < 1024 := (i 2).isLt
  have hN : cfg0.N = 32 := N_0
  obtain ⟨t, ht⟩ : ∃ t : Fin cfg0.N, t.val = 2 * (i 0).val + (i 1).val / 512 := ⟨⟨2 * (i 0).val + (i 1).val / 512, by omega⟩, rfl⟩
  obtain ⟨-, -, -, -, -, -, e0, e1, e2, -⟩ := idx_facts t
  refine ⟨t, flush0_2 t, ?_⟩
  show i ∈ ((View.whole main_v0_0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; rw [e0]; omega
  | ⟨1, _⟩ => show win0_2.index t (1 : Fin 3) * 512 ≤ (i 1).val ∧ (i 1).val < win0_2.index t (1 : Fin 3) * 512 + 512; rw [e1]; omega
  | ⟨2, _⟩ => show win0_2.index t (2 : Fin 3) * 1024 ≤ (i 2).val ∧ (i 2).val < win0_2.index t (2 : Fin 3) * 1024 + 1024; rw [e2]; omega

theorem scoresFinal (c : Dev nD) : (dats m 0 c).arrAt 3 cfg0.N = scoresArr (Qa m c) (Ma m c) :=
  (dats m 0 c).arrAt_eq_of_cover 3 (scoresArr (Qa m c) (Ma m c)) (fun t _ => scoresFlushed m c t) scores_cover

theorem contextFinal (c : Dev nD) : (dats m 0 c).arrAt 2 cfg0.N = contextArr (Qa m c) (Ma m c) :=
  (dats m 0 c).arrAt_eq_of_cover 2 (contextArr (Qa m c) (Ma m c)) (fun t _ => contextFlushed m c t) context_cover

/-- The run: the context result and the score result end at the specification's arrays of the arguments, which are
    left as they were. -/
theorem run : θ_run defs (onTc (τ := τ) (main (F := Ideal))) ⟨m, fun _ => 0, ρ⟩ fun r => ∀ c : Dev nD,
      r.2.mem ((c : Thread nD τ).loc main_v0_0) = contextArr (Qa m c) (Ma m c)
      ∧ r.2.mem ((c : Thread nD τ).loc main_v0_1) = scoresArr (Qa m c) (Ma m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (contextFinal m c), (h c).2.1.trans (scoresFinal m c), (h c).2.2.1, (h c).2.2.2⟩)
    (Value.run_blocks m ρ)

end Cert.KernelIdeal.Whole

end
-- ==== Proof.RefValue.lean ====
/-
  The reference, stage by stage, is the specification: its first product is the score array; its row maximum
  (a fold of `max` from -∞, then one more `max` against -∞, which changes nothing because the fold already
  starts there) is `rowMax`; the exponential of the shifted scores is `weight`; the row sum from zero is
  `weightSum`; the quotient is `prob`; the second product is the context array.  Every stage is read at an
  index written by its coordinates (batch, query row, key row or feature).
-/
import proofs.«151234_j10264971837964_2_alg».proof.Proof.Gen.ReferenceIdeal.Read
import proofs.«151234_j10264971837964_2_alg».proof.Proof.Spec
import Idealize.ShloMosaic.PureOps.Ideal.Laws
import Idealize.ShloMosaic.Lib.ValueIdx

noncomputable section

open scoped BigOperators

namespace Cert.ReferenceIdeal.Attn

open Cert.ReferenceIdeal Cert.ReferenceIdeal.Gen Cert.ReferenceIdeal.Read Idealize.ShloMosaic Idealize.ShloMosaic.ValueIdx Cert.Attn

variable (x0 x1 : (⟨S16x1024x1024, .f32⟩ : BufTy).Contents (Elt Ideal))

/-- The first product at (b, q, k): the sum over the features of query row q times key row k. -/
theorem v0_at (b : Fin 16) (q k : Fin 1024) : val_main_v0 (F := Ideal) x0 x1 (ix3 b q k) = score x0 x1 b q k := by
  rw [val_main_v0_apply]
  unfold score
  refine Finset.sum_congr rfl fun h _ => ?_
  have el : lidx_main_v0 (ix3 b q k) h = ix3 b q h := funext fun a => by
    match a with | ⟨0, _⟩ => rfl | ⟨1, _⟩ => rfl | ⟨2, _⟩ => rfl
  have er : ridx_main_v0 (ix3 b q k) h = ix3 b k h := funext fun a => by
    match a with | ⟨0, _⟩ => rfl | ⟨1, _⟩ => rfl | ⟨2, _⟩ => rfl
  rw [el, er]

theorem reduces_keys : S16x1024x1024.Reduces [2] S16x1024 := by decide

/-- A reduce with `max` over the key axis, from the f32 pattern of -∞, at (b, q): the fold of `max` over row (b, q). -/
theorem hostRowMax_apply (s : (⟨S16x1024x1024, .f32⟩ : BufTy).Contents (Elt Ideal)) (b : Fin 16) (q : Fin 1024) :
    Host.reduce (FloatOps.maximumf (F := Ideal) (φ := .f32)) s (val_main_cst (F := Ideal)) reducesTo_S16x1024x1024_S16x1024_d2 h_S_ (ix2 b q)
      = (Finset.univ : Finset (Fin 1024)).fold max negInf (fun k => s (ix3 b q k)) := by
  refine (Host.reduce_eq_fold_single (FloatOps.maximumf (F := Ideal) (φ := .f32)) s (val_main_cst (F := Ideal))
    reducesTo_S16x1024x1024_S16x1024_d2 reduces_keys h_S_ (ix2 b q)).trans ?_
  refine congrArg (fun f : Fin 1024 → EReal => (Finset.univ : Finset (Fin 1024)).fold max negInf f) (funext fun k => ?_)
  exact congrArg s (funext fun a => Fin.ext (by match a with | ⟨0, _⟩ => rfl | ⟨1, _⟩ => rfl | ⟨2, _⟩ => rfl))

/-- The reduce over the key axis at (b, q): the fold of `max` from -∞ over row (b, q) of the scores. -/
theorem v1_at (b : Fin 16) (q : Fin 1024) : val_main_v1 (F := Ideal) x0 x1 (ix2 b q) = rowMax x0 x1 b q := by
  unfold val_main_v1
  rw [hostRowMax_apply]
  unfold rowMax
  simp only [v0_at]

/-- The extra `max` against -∞ leaves the row maximum as it is: the fold is already at least its starting value. -/
theorem v3_at (b : Fin 16) (q : Fin 1024) : val_main_v3 (F := Ideal) x0 x1 (ix2 b q) = rowMax x0 x1 b q := by
  rw [val_main_v3_apply, v1_at, val_main_v2_apply, val_main_cst_0_apply]
  show max negInf (rowMax x0 x1 b q) = rowMax x0 x1 b q
  unfold rowMax
  exact max_eq_right ((Finset.le_fold_max _).mpr (Or.inl le_rfl))

/-- The row maximum broadcast back along the key axis. -/
theorem v5_at (b : Fin 16) (q k : Fin 1024) : val_main_v5 (F := Ideal) x0 x1 (ix3 b q k) = rowMax x0 x1 b q := by
  rw [val_main_v5_apply, val_main_v4_apply]
  have e : idx_main_v4 (idx_main_v5 (ix3 b q k)) = ix2 b q := funext fun a => by
    match a with | ⟨0, _⟩ => rfl | ⟨1, _⟩ => rfl
  rw [e, v3_at]

/-- The exponential of the shifted score. -/
theorem v7_at (b : Fin 16) (q k : Fin 1024) : val_main_v7 (F := Ideal) x0 x1 (ix3 b q k) = weight x0 x1 b q k := by
  rw [val_main_v7_apply, val_main_v6_apply, v0_at, v5_at]
  rfl

/-- The row sum of the exponentials, from zero. -/
theorem v8_at (b : Fin 16) (q : Fin 1024) : val_main_v8 (F := Ideal) x0 x1 (ix2 b q) = weightSum x0 x1 b q := by
  rw [val_main_v8_apply]
  have e : ∀ k : Fin 1024, idx_main_v8 (ix2 b q) k = ix3 b q k := fun k => funext fun a => by
    match a with | ⟨0, _⟩ => rfl | ⟨1, _⟩ => rfl | ⟨2, _⟩ => rfl
  simp only [e, v7_at]
  show Ideal.ofBits .f32 0x00000000#32 + _ = _
  rw [Ideal.ofBits_zero_f32, zero_add]
  rfl

/-- The row sum broadcast back along the key axis. -/
theorem v10_at (b : Fin 16) (q k : Fin 1024) : val_main_v10 (F := Ideal) x0 x1 (ix3 b q k) = weightSum x0 x1 b q := by
  rw [val_main_v10_apply, val_main_v9_apply]
  have e : idx_main_v9 (idx_main_v10 (ix3 b q k)) = ix2 b q := funext fun a => by
    match a with | ⟨0, _⟩ => rfl | ⟨1, _⟩ => rfl
  rw [e, v8_at]

/-- The softmax probability. -/
theorem v11_at (b : Fin 16) (q k : Fin 1024) : val_main_v11 (F := Ideal) x0 x1 (ix3 b q k) = prob x0 x1 b q k := by
  rw [val_main_v11_apply, v7_at, v10_at]
  rfl

/-- The reference's score result is the score array. -/
theorem scores_eq : val_main_v0 (F := Ideal) x0 x1 = scoresArr x0 x1 := by
  funext i
  obtain ⟨b, q, k, rfl⟩ : ∃ (b : Fin 16) (q k : Fin 1024), i = ix3 b q k := ⟨i 0, i 1, i 2, eq_ix3 i⟩
  exact v0_at x0 x1 b q k

/-- The reference's context result is the context array. -/
theorem context_eq : val_main_v12 (F := Ideal) x0 x1 = contextArr x0 x1 := by
  funext i
  obtain ⟨b, q, h, rfl⟩ : ∃ (b : Fin 16) (q h : Fin 1024), i = ix3 b q h := ⟨i 0, i 1, i 2, eq_ix3 i⟩
  rw [val_main_v12_apply]
  show _ = context x0 x1 b q h
  unfold context
  refine Finset.sum_congr rfl fun k _ => ?_
  have el : lidx_main_v12 (ix3 b q h) k = ix3 b q k := funext fun a => by
    match a with | ⟨0, _⟩ => rfl | ⟨1, _⟩ => rfl | ⟨2, _⟩ => rfl
  have er : ridx_main_v12 (ix3 b q h) k = ix3 b k h := funext fun a => by
    match a with | ⟨0, _⟩ => rfl | ⟨1, _⟩ => rfl | ⟨2, _⟩ => rfl
  rw [el, er, v11_at]

end Cert.ReferenceIdeal.Attn

end
-- ==== Proof.lean ====
/-
  The kernel computes unscaled dot-product attention tile by tile: for each batch and each tile of 512 query rows it
  forms the scores against the batch's 1024 keys (features contracted), writes them out, takes the row softmax
  (shift by the row maximum, exponentiate, divide by the row sum) and multiplies by the keys again to get the context
  tile.  The batch's key matrix is cached at the batch's first tile and reused at its second.  The reference does the
  same with whole-array operations.

  Over the extended reals roundings disappear, a product into a zero accumulator and the host's product are the same
  sum, a lane reduction and the host's reduce are the same fold or sum, and the only textual difference left — the
  reference takes one more maximum against -∞ — changes nothing.  Both programs therefore end with the arrays
  `contextArr` and `scoresArr` of the specification, whatever the arguments hold: finiteness of the inputs is never
  used.  The three frames are the generated ones (the reference's is its generated run with the results dropped), and
  the idealization rewrote nothing.
-/
import proofs.«151234_j10264971837964_2_alg».proof.Defs
import proofs.«151234_j10264971837964_2_alg».proof.Proof.Gen.Kernel
import proofs.«151234_j10264971837964_2_alg».proof.Proof.Gen.Kernel.Skeleton
import proofs.«151234_j10264971837964_2_alg».proof.Proof.Gen.Kernel.Launch
import proofs.«151234_j10264971837964_2_alg».proof.Proof.Gen.Kernel.Points
import proofs.«151234_j10264971837964_2_alg».proof.Proof.Gen.Kernel.Frame
import proofs.«151234_j10264971837964_2_alg».proof.Proof.Gen.KernelIdeal
import proofs.«151234_j10264971837964_2_alg».proof.Proof.Gen.KernelIdeal.Skeleton
import proofs.«151234_j10264971837964_2_alg».proof.Proof.Gen.KernelIdeal.Launch
import proofs.«151234_j10264971837964_2_alg».proof.Proof.Gen.KernelIdeal.Points
import proofs.«151234_j10264971837964_2_alg».proof.Proof.Gen.KernelIdeal.Frame
import proofs.«151234_j10264971837964_2_alg».proof.Proof.Gen.ReferenceIdeal
import proofs.«151234_j10264971837964_2_alg».proof.Proof.Gen.Pre_finite_inputs
import proofs.«151234_j10264971837964_2_alg».proof.Proof.Gen.KernelIdeal.Value
import proofs.«151234_j10264971837964_2_alg».proof.Proof.Gen.ReferenceIdeal.Run
import proofs.«151234_j10264971837964_2_alg».proof.Proof.Gen.ReferenceIdeal.Read
import proofs.«151234_j10264971837964_2_alg».proof.Proof.Whole
import proofs.«151234_j10264971837964_2_alg».proof.Proof.RefValue
import Idealize.ShloMosaic.Adequacy
import Idealize.ShloMosaic.Init

noncomputable section

namespace Cert.Proof

open Idealize.ShloMosaic Idealize.SL.Sem Cert.Attn

theorem frame_kernel : Cert.frame_Kernel := fun m ρ _ => Cert.Kernel.Gen.frame m ρ

theorem frame_kernelIdeal : Cert.frame_KernelIdeal := fun m ρ _ => Cert.KernelIdeal.Gen.frame m ρ

/-- The reference's run leaves its arguments as they were. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From arguments that agree, the kernel ends with the specification's context and score arrays (tile by tile, the
    blocks tiling both arrays) and so does the reference (stage by stage). -/
theorem algebraic : Cert.algebraic_KernelIdeal_ReferenceIdeal := by
  intro m ρ m' ρ' _ hagree
  refine ⟨fun c => contextArr (Cert.KernelIdeal.Whole.Qa m c) (Cert.KernelIdeal.Whole.Ma m c),
    fun c => scoresArr (Cert.KernelIdeal.Whole.Qa m c) (Cert.KernelIdeal.Whole.Ma m c), Cert.KernelIdeal.Whole.run m ρ, ?_⟩
  refine (θ_run Cert.ReferenceIdeal.defs _ _).mono (fun _ h c => ⟨(h c).1.trans ?_, (h c).2.1.trans ?_, (h c).2.2.1, (h c).2.2.2⟩)
    (Cert.ReferenceIdeal.Value.run (F := Ideal) m' ρ')
  · rw [Cert.ReferenceIdeal.Read.val_main_v12_eq, Cert.ReferenceIdeal.Attn.context_eq, (hagree c).1, (hagree c).2]
  · rw [Cert.ReferenceIdeal.Read.val_main_v0_eq, Cert.ReferenceIdeal.Attn.scores_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
